-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256x384 : Shape := ⟨3, ![512, 256, 384]⟩
abbrev S384x64 : Shape := ⟨2, ![384, 64]⟩
abbrev S64x256 : Shape := ⟨2, ![64, 256]⟩
abbrev S_ : Shape := ⟨0, ![]⟩

class Facts : Prop where
  bcast_S_S512x256x384 : S_.BroadcastsInDim S512x256x384 (![] : Fin 0 → Fin S512x256x384.rank)
  reducesTo_S512x256x384_S_d0_1_2 : S512x256x384.ReducesTo [0, 1, 2] S_
  h_S_ : 0 < S_.numel
  bcast_S_S384x64 : S_.BroadcastsInDim S384x64 (![] : Fin 0 → Fin S384x64.rank)
  reducesTo_S384x64_S_d0_1 : S384x64.ReducesTo [0, 1] S_
  bcast_S_S64x256 : S_.BroadcastsInDim S64x256 (![] : Fin 0 → Fin S64x256.rank)
  reducesTo_S64x256_S_d0_1 : S64x256.ReducesTo [0, 1] S_

variable [Facts]

def fn_part1 {F : FTy → Type} [FloatOps F] (main_arg4 : FVec F S64x256 .f32) (main_arg5 : FVec F S64x256 .f32) (main_v13 : IVec S_ 1) (main_v16 : IVec S384x64 1) : IVec S_ 1 :=
  let main_c_5 : IVec S_ 1 := constantI S_ 1 1#1
  let main_v17 : IVec S_ 1 := (fun x v => Host.reduce IntOp.andi x v reducesTo_S384x64_S_d0_1 h_S_) main_v16 main_c_5
  let main_v18 : IVec S_ 1 := andi main_v13 main_v17
  let main_v19 : FVec F S64x256 .f32 := Host.absf main_arg4
  let main_cst_6 : FVec F S_ .f32 := constant S_ .f32 0x7F800000#32
  let main_v20 : FVec F S64x256 .f32 := broadcastInDim S64x256 ![] bcast_S_S64x256 main_cst_6
  let main_v21 : IVec S64x256 1 := cmpf .olt main_v19 main_v20
  let main_c_7 : IVec S_ 1 := constantI S_ 1 1#1
  let main_v22 : IVec S_ 1 := (fun x v => Host.reduce IntOp.andi x v reducesTo_S64x256_S_d0_1 h_S_) main_v21 main_c_7
  let main_v23 : IVec S_ 1 := andi main_v18 main_v22
  let main_v24 : FVec F S64x256 .f32 := Host.absf main_arg5
  let main_cst_8 : FVec F S_ .f32 := constant S_ .f32 0x7F800000#32
  let main_v25 : FVec F S64x256 .f32 := broadcastInDim S64x256 ![] bcast_S_S64x256 main_cst_8
  let main_v26 : IVec S64x256 1 := cmpf .olt main_v24 main_v25
  let main_c_9 : IVec S_ 1 := constantI S_ 1 1#1
  let main_v27 : IVec S_ 1 := (fun x v => Host.reduce IntOp.andi x v reducesTo_S64x256_S_d0_1 h_S_) main_v26 main_c_9
  let main_v28 : IVec S_ 1 := andi main_v23 main_v27
  main_v28

def fn {F : FTy → Type} [FloatOps F] (main_arg0 : FVec F S512x256x384 .f32) (main_arg1 : FVec F S384x64 .f32) (main_arg2 : FVec F S384x64 .f32) (main_arg3 : FVec F S384x64 .f32) (main_arg4 : FVec F S64x256 .f32) (main_arg5 : FVec F S64x256 .f32) : IVec S_ 1 :=
  let main_v0 : FVec F S512x256x384 .f32 := Host.absf main_arg0
  let main_cst : FVec F S_ .f32 := constant S_ .f32 0x7F800000#32
  let main_v1 : FVec F S512x256x384 .f32 := broadcastInDim S512x256x384 ![] bcast_S_S512x256x384 main_cst
  let main_v2 : IVec S512x256x384 1 := cmpf .olt main_v0 main_v1
  let main_c : IVec S_ 1 := constantI S_ 1 1#1
  let main_v3 : IVec S_ 1 := (fun x v => Host.reduce IntOp.andi x v reducesTo_S512x256x384_S_d0_1_2 h_S_) main_v2 main_c
  let main_v4 : FVec F S384x64 .f32 := Host.absf main_arg1
  let main_cst_0 : FVec F S_ .f32 := constant S_ .f32 0x7F800000#32
  let main_v5 : FVec F S384x64 .f32 := broadcastInDim S384x64 ![] bcast_S_S384x64 main_cst_0
  let main_v6 : IVec S384x64 1 := cmpf .olt main_v4 main_v5
  let main_c_1 : IVec S_ 1 := constantI S_ 1 1#1
  let main_v7 : IVec S_ 1 := (fun x v => Host.reduce IntOp.andi x v reducesTo_S384x64_S_d0_1 h_S_) main_v6 main_c_1
  let main_v8 : IVec S_ 1 := andi main_v3 main_v7
  let main_v9 : FVec F S384x64 .f32 := Host.absf main_arg2
  let main_cst_2 : FVec F S_ .f32 := constant S_ .f32 0x7F800000#32
  let main_v10 : FVec F S384x64 .f32 := broadcastInDim S384x64 ![] bcast_S_S384x64 main_cst_2
  let main_v11 : IVec S384x64 1 := cmpf .olt main_v9 main_v10
  let main_c_3 : IVec S_ 1 := constantI S_ 1 1#1
  let main_v12 : IVec S_ 1 := (fun x v => Host.reduce IntOp.andi x v reducesTo_S384x64_S_d0_1 h_S_) main_v11 main_c_3
  let main_v13 : IVec S_ 1 := andi main_v8 main_v12
  let main_v14 : FVec F S384x64 .f32 := Host.absf main_arg3
  let main_cst_4 : FVec F S_ .f32 := constant S_ .f32 0x7F800000#32
  let main_v15 : FVec F S384x64 .f32 := broadcastInDim S384x64 ![] bcast_S_S384x64 main_cst_4
  let main_v16 : IVec S384x64 1 := cmpf .olt main_v14 main_v15
  fn_part1 (F := F) main_arg4 main_arg5 main_v13 main_v16
-- ==== Kernel.lean ====
abbrev S512x256x384 : Shape := ⟨3, ![512, 256, 384]⟩
abbrev S384x64 : Shape := ⟨2, ![384, 64]⟩
abbrev S64x256 : Shape := ⟨2, ![64, 256]⟩
abbrev S512x256x64 : Shape := ⟨3, ![512, 256, 64]⟩
abbrev S1x256x384 : Shape := ⟨3, ![1, 256, 384]⟩
abbrev S1x256x64 : Shape := ⟨3, ![1, 256, 64]⟩
abbrev S256x384 : Shape := ⟨2, ![256, 384]⟩
abbrev S256x64 : Shape := ⟨2, ![256, 64]⟩
abbrev S256x256 : Shape := ⟨2, ![256, 256]⟩
abbrev S256 : Shape := ⟨1, ![256]⟩
abbrev S256x1 : Shape := ⟨2, ![256, 1]⟩

abbrev nBuf : Space → Nat
  | .hbm => 7
  | .vmem => 9
  | .smem => 0
  | _ => 0

abbrev bufTy : (tb : Table) → Fin (tcTables nBuf tb) → BufTy
  | .hbm, ⟨0, _⟩ => ⟨S512x256x384, .f32⟩
  | .hbm, ⟨1, _⟩ => ⟨S384x64, .f32⟩
  | .hbm, ⟨2, _⟩ => ⟨S384x64, .f32⟩
  | .hbm, ⟨3, _⟩ => ⟨S384x64, .f32⟩
  | .hbm, ⟨4, _⟩ => ⟨S64x256, .f32⟩
  | .hbm, ⟨5, _⟩ => ⟨S64x256, .f32⟩
  | .hbm, ⟨6, _⟩ => ⟨S512x256x64, .f32⟩
  | .local _ .vmem, ⟨0, _⟩ => ⟨S1x256x384, .f32⟩
  | .local _ .vmem, ⟨1, _⟩ => ⟨S1x256x384, .f32⟩
  | .local _ .vmem, ⟨2, _⟩ => ⟨S384x64, .f32⟩
  | .local _ .vmem, ⟨3, _⟩ => ⟨S384x64, .f32⟩
  | .local _ .vmem, ⟨4, _⟩ => ⟨S384x64, .f32⟩
  | .local _ .vmem, ⟨5, _⟩ => ⟨S64x256, .f32⟩
  | .local _ .vmem, ⟨6, _⟩ => ⟨S64x256, .f32⟩
  | .local _ .vmem, ⟨7, _⟩ => ⟨S1x256x64, .f32⟩
  | .local _ .vmem, ⟨8, _⟩ => ⟨S1x256x64, .f32⟩
  | _, _ => ⟨S512x256x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![512], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S384x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S384x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S1x256x384_S1x256x384_0_0_0 : ∀ a, (![0, 0, 0] : Fin 3 → Nat) a + S1x256x384.size a ≤ S1x256x384.size a
  h_S1x256x384 : 0 < S1x256x384.numel
  shapeCasts_S1x256x384_S256x384 : S1x256x384.ShapeCasts S256x384
  bitsLt_bf16_f32 : FTy.bits .bf16 < FTy.bits .f32
  inb_S384x64_S384x64_0_0 : ∀ a, (![0, 0] : Fin 2 → Nat) a + S384x64.size a ≤ S384x64.size a
  h_S384x64 : 0 < S384x64.numel
  inb_S64x256_S64x256_0_0 : ∀ a, (![0, 0] : Fin 2 → Nat) a + S64x256.size a ≤ S64x256.size a
  h_S64x256 : 0 < S64x256.numel
  iota_S256x256_d0_w32 : S256x256.Iotas .tc 32 [0]
  iota_S256x256_d1_w32 : S256x256.Iotas .tc 32 [1]
  reduces_S256x256_S256 : S256x256.Reduces [1] S256
  shapeCasts_S256_S256x1 : S256.ShapeCasts S256x1
  broadcasts_S256x1_S256x256 : S256x1.Broadcasts S256x256
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  shapeCasts_S256x64_S1x256x64 : S256x64.ShapeCasts S1x256x64
  dot_S256x384_S384x64_S256x64_1_0_0_1_n_n_wf : DotDims.WF S256x384 S384x64 S256x64 [1] [0] [0] [1] [] []
  dot_S256x64_S64x256_S256x256_1_0_0_1_n_n_wf : DotDims.WF S256x64 S64x256 S256x256 [1] [0] [0] [1] [] []
  dot_S256x256_S256x64_S256x64_1_0_0_1_n_n_wf : DotDims.WF S256x256 S256x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x384.size a ≤ S512x256x384.size a
  hwx0_0 : ∀ i : grid0.Coords, EltTy.bits .f32 = 32 ∨ (Rect.block (s := S512x256x384) S1x256x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x64.size a ≤ S384x64.size a
  hwx0_1 : ∀ i : grid0.Coords, EltTy.bits .f32 = 32 ∨ (Rect.block (s := S384x64) S384x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S384x64.size a ≤ S384x64.size a
  hwx0_2 : ∀ i : grid0.Coords, EltTy.bits .f32 = 32 ∨ (Rect.block (s := S384x64) S384x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x64.size a ≤ S384x64.size a
  hwx0_3 : ∀ i : grid0.Coords, EltTy.bits .f32 = 32 ∨ (Rect.block (s := S384x64) S384x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S64x256.size a
  hwx0_4 : ∀ i : grid0.Coords, EltTy.bits .f32 = 32 ∨ (Rect.block (s := S64x256) S64x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x256.size a ≤ S64x256.size a
  hwx0_5 : ∀ i : grid0.Coords, EltTy.bits .f32 = 32 ∨ (Rect.block (s := S64x256) S64x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x64.size a ≤ S512x256x64.size a
  hwx0_6 : ∀ i : grid0.Coords, EltTy.bits .f32 = 32 ∨ (Rect.block (s := S512x256x64) S1x256x64.size (cc0_transform_6 i) (hinb0_6 i)).WholeWords (EltTy.packing .f32)

variable [Facts₀]

def dot_S256x384_S384x64_S256x64_1_0_0_1_n_n : DotDims S256x384 S384x64 S256x64 where
  lhsContracting := [1]
  rhsContracting := [0]
  lhsNonContracting := [0]
  rhsNonContracting := [1]
  lhsBatch := []
  rhsBatch := []
  wf := dot_S256x384_S384x64_S256x64_1_0_0_1_n_n_wf
def dot_S256x64_S64x256_S256x256_1_0_0_1_n_n : DotDims S256x64 S64x256 S256x256 where
  lhsContracting := [1]
  rhsContracting := [0]
  lhsNonContracting := [0]
  rhsNonContracting := [1]
  lhsBatch := []
  rhsBatch := []
  wf := dot_S256x64_S64x256_S256x256_1_0_0_1_n_n_wf
def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf

abbrev win0_0 : Pipeline.Window sig grid0 :=
  Pipeline.Window.ofSpec (Memref.whole main_arg0) S1x256x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S384x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S384x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S384x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x256x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S512x256x384 : Shape := ⟨3, ![512, 256, 384]⟩
abbrev S384x64 : Shape := ⟨2, ![384, 64]⟩
abbrev S64x256 : Shape := ⟨2, ![64, 256]⟩
abbrev S512x256x64 : Shape := ⟨3, ![512, 256, 64]⟩
abbrev S512x256x256 : Shape := ⟨3, ![512, 256, 256]⟩
abbrev S_ : Shape := ⟨0, ![]⟩
abbrev S256x256 : Shape := ⟨2, ![256, 256]⟩
abbrev S512x256 : Shape := ⟨2, ![512, 256]⟩
abbrev S512x256x1 : Shape := ⟨3, ![512, 256, 1]⟩

abbrev nBuf : Space → Nat
  | .hbm => 44
  | .vmem => 0
  | .smem => 0
  | _ => 0

abbrev bufTy : (tb : Table) → Fin (tcTables nBuf tb) → BufTy
  | .hbm, ⟨0, _⟩ => ⟨S512x256x384, .f32⟩
  | .hbm, ⟨1, _⟩ => ⟨S384x64, .f32⟩
  | .hbm, ⟨2, _⟩ => ⟨S384x64, .f32⟩
  | .hbm, ⟨3, _⟩ => ⟨S384x64, .f32⟩
  | .hbm, ⟨4, _⟩ => ⟨S64x256, .f32⟩
  | .hbm, ⟨5, _⟩ => ⟨S64x256, .f32⟩
  | .hbm, ⟨6, _⟩ => ⟨S512x256x64, .f32⟩
  | .hbm, ⟨7, _⟩ => ⟨S512x256x64, .f32⟩
  | .hbm, ⟨8, _⟩ => ⟨S512x256x256, .f32⟩
  | .hbm, ⟨9, _⟩ => ⟨S512x256x256, .f32⟩
  | .hbm, ⟨10, _⟩ => ⟨S512x256x256, .f32⟩
  | .hbm, ⟨11, _⟩ => ⟨S512x256x256, .f32⟩
  | .hbm, ⟨12, _⟩ => ⟨S_, .i1⟩
  | .hbm, ⟨13, _⟩ => ⟨S256x256, .i1⟩
  | .hbm, ⟨14, _⟩ => ⟨S256x256, .i32⟩
  | .hbm, ⟨15, _⟩ => ⟨S_, .i32⟩
  | .hbm, ⟨16, _⟩ => ⟨S256x256, .i32⟩
  | .hbm, ⟨17, _⟩ => ⟨S256x256, .i32⟩
  | .hbm, ⟨18, _⟩ => ⟨S256x256, .i32⟩
  | .hbm, ⟨19, _⟩ => ⟨S256x256, .i1⟩
  | .hbm, ⟨20, _⟩ => ⟨S_, .i1⟩
  | .hbm, ⟨21, _⟩ => ⟨S256x256, .i1⟩
  | .hbm, ⟨22, _⟩ => ⟨S256x256, .i1⟩
  | .hbm, ⟨23, _⟩ => ⟨S_, .f32⟩
  | .hbm, ⟨24, _⟩ => ⟨S_, .f32⟩
  | .hbm, ⟨25, _⟩ => ⟨S512x256x256, .i1⟩
  | .hbm, ⟨26, _⟩ => ⟨S512x256x256, .f32⟩
  | .hbm, ⟨27, _⟩ => ⟨S512x256x256, .f32⟩
  | .hbm, ⟨28, _⟩ => ⟨S_, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S512x256x1, .f32⟩
  | .hbm, ⟨34, _⟩ => ⟨S512x256x256, .f32⟩
  | .hbm, ⟨35, _⟩ => ⟨S512x256x256, .f32⟩
  | .hbm, ⟨36, _⟩ => ⟨S512x256x256, .f32⟩
  | .hbm, ⟨37, _⟩ => ⟨S_, .f32⟩
  | .hbm, ⟨38, _⟩ => ⟨S512x256, .f32⟩
  | .hbm, ⟨39, _⟩ => ⟨S512x256x1, .f32⟩
  | .hbm, ⟨40, _⟩ => ⟨S512x256x256, .f32⟩
  | .hbm, ⟨41, _⟩ => ⟨S512x256x256, .f32⟩
  | .hbm, ⟨42, _⟩ => ⟨S512x256x64, .f32⟩
  | .hbm, ⟨43, _⟩ => ⟨S512x256x64, .f32⟩
  | _, _ => ⟨S512x256x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_0 : Ref sig .tc := ⟨.hbm, 20, rfl⟩
abbrev main_call0_v5 : Ref sig .tc := ⟨.hbm, 21, rfl⟩
abbrev main_v7 : Ref sig .tc := ⟨.hbm, 22, rfl⟩
abbrev main_cst : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_cst_0 : Ref sig .tc := ⟨.hbm, 28, rfl⟩
abbrev main_v9 : Ref sig .tc := ⟨.hbm, 29, rfl⟩
abbrev main_cst_1 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_2 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩

abbrev nD : Nat := 1
abbrev τ : Topo := Topo.v7x

variable {F : FTy → Type} [FloatOps F]

class Facts₀ : Prop where
  bcast_S_S256x256 : S_.BroadcastsInDim S256x256 (![] : Fin 0 → Fin S256x256.rank)
  bcast_S256x256_S512x256x256_1_2 : S256x256.BroadcastsInDim S512x256x256 (![1, 2] : Fin 2 → Fin S512x256x256.rank)
  bcast_S_S512x256x256 : S_.BroadcastsInDim S512x256x256 (![] : Fin 0 → Fin S512x256x256.rank)
  reducesTo_S512x256x256_S512x256_d2 : S512x256x256.ReducesTo [2] S512x256
  h_S_ : 0 < S_.numel
  bcast_S_S512x256 : S_.BroadcastsInDim S512x256 (![] : Fin 0 → Fin S512x256.rank)
  bcast_S512x256_S512x256x1_0_1 : S512x256.BroadcastsInDim S512x256x1 (![0, 1] : Fin 2 → Fin S512x256x1.rank)
  bcast_S512x256x1_S512x256x256_0_1_2 : S512x256x1.BroadcastsInDim S512x256x256 (![0, 1, 2] : Fin 3 → Fin S512x256x256.rank)
  dot_S512x256x384_S384x64_S512x256x64_2_0_01_1_n_n_wf : DotDims.WF S512x256x384 S384x64 S512x256x64 [2] [0] [0, 1] [1] [] []
  dot_S512x256x64_S64x256_S512x256x256_2_0_01_1_n_n_wf : DotDims.WF S512x256x64 S64x256 S512x256x256 [2] [0] [0, 1] [1] [] []
  dot_S512x256x256_S512x256x64_S512x256x64_2_1_1_2_0_0_wf : DotDims.WF S512x256x256 S512x256x64 S512x256x64 [2] [1] [1] [2] [0] [0]

variable [Facts₀]

def dot_S512x256x384_S384x64_S512x256x64_2_0_01_1_n_n : DotDims S512x256x384 S384x64 S512x256x64 where
  lhsContracting := [2]
  rhsContracting := [0]
  lhsNonContracting := [0, 1]
  rhsNonContracting := [1]
  lhsBatch := []
  rhsBatch := []
  wf := dot_S512x256x384_S384x64_S512x256x64_2_0_01_1_n_n_wf
def dot_S512x256x64_S64x256_S512x256x256_2_0_01_1_n_n : DotDims S512x256x64 S64x256 S512x256x256 where
  lhsContracting := [2]
  rhsContracting := [0]
  lhsNonContracting := [0, 1]
  rhsNonContracting := [1]
  lhsBatch := []
  rhsBatch := []
  wf := dot_S512x256x64_S64x256_S512x256x256_2_0_01_1_n_n_wf
def dot_S512x256x256_S512x256x64_S512x256x64_2_1_1_2_0_0 : DotDims S512x256x256 S512x256x64 S512x256x64 where
  lhsContracting := [2]
  rhsContracting := [1]
  lhsNonContracting := [1]
  rhsNonContracting := [2]
  lhsBatch := [0]
  rhsBatch := [0]
  wf := dot_S512x256x256_S512x256x64_S512x256x64_2_1_1_2_0_0_wf

class Facts : Prop extends Facts₀ where

variable [Facts]
-- ==== Proof.Attention.lean ====
/-
  One head of causal self-attention with an additive (tanh) score, as a function of its arrays, entry by entry, over the
  extended reals.

  For one sequence X (256 positions by 384 features), projections Wq, Wk, Wv (384 by 64) and two further maps Lq, Lk (64 by 256):
    q = X·Wq,  k = X·Wk,  v = X·Wv                                   (256 by 64 each)
    a[t,s] = tanh ((q·Lq)[t,s] + (k·Lk)[t,s])                          (256 by 256: the score of position t for position s)
    S[t,s] = a[t,s] when s ≤ t, and −∞ otherwise                       (position t sees itself and the past only)
    E[t,s] = exp (S[t,s] − max over s' of S[t,s'])                      (so E[t,s] = 0 exactly where S[t,s] = −∞)
    out[t,h] = Σ_s (E[t,s] / Σ_s' E[t,s']) · v[s,h].
  Every matrix product is the plain sum of products over the contracted coordinate; nothing is rearranged, so the definition
  makes sense — and is used — at every extended real, finite or not. A stack of 512 sequences is treated one sequence at a
  time: entry (b, t, h) of the result is entry (t, h) of the head of sequence b.
-/
import Idealize.ShloMosaic.PureOps.Ideal
import Idealize.ShloMosaic.Lib.ValueIdx

noncomputable section

open scoped BigOperators

namespace Attention

open Idealize.ShloMosaic Idealize.ShloMosaic.ValueIdx

/-- An a-by-b matrix of extended reals, read at a pair of coordinates. -/
abbrev Mat (a b : ℕ) : Type := (⟨2, ![a, b]⟩ : Shape).Idx → EReal

/-- A stack of n matrices, a by b each. -/
abbrev Stack (n a b : ℕ) : Type := (⟨3, ![n, a, b]⟩ : Shape).Idx → EReal

/-- A projection of the sequence: (X·W)[t,h] = Σ_c X[t,c] · W[c,h]. -/
def proj (X : Mat 256 384) (W : Mat 384 64) (t : Fin 256) (h : Fin 64) : EReal :=
  ∑ c : Fin 384, X (ix2 t c) * W (ix2 c h)

/-- A projected sequence spread over the 256 positions: (Q·L)[t,s] = Σ_h Q[t,h] · L[h,s]. -/
def spread (Q : Fin 256 → Fin 64 → EReal) (L : Mat 64 256) (t s : Fin 256) : EReal :=
  ∑ h : Fin 64, Q t h * L (ix2 h s)

/-- The causal score: tanh of the sum of the two spread projections where s ≤ t, and −∞ (the bottom element) elsewhere. -/
def score (X : Mat 256 384) (Wq Wk : Mat 384 64) (Lq Lk : Mat 64 256) (t s : Fin 256) : EReal :=
  if s.val ≤ t.val then Ideal.tanh (spread (proj X Wq) Lq t s + spread (proj X Wk) Lk t s) else ⊥

/-- The largest entry of row t. -/
def rowMax (S : Fin 256 → Fin 256 → EReal) (t : Fin 256) : EReal :=
  (Finset.univ : Finset (Fin 256)).sup fun s => S t s

/-- The unnormalised softmax weight: exp of the entry less its row's maximum. -/
def weight (S : Fin 256 → Fin 256 → EReal) (t s : Fin 256) : EReal :=
  Ideal.exp (S t s - rowMax S t)

/-- The sum of row t. -/
def rowSum (E : Fin 256 → Fin 256 → EReal) (t : Fin 256) : EReal :=
  ∑ s : Fin 256, E t s

/-- The weights, each divided by its row's sum, applied to the values: Σ_s (E[t,s] / Σ E[t,·]) · V[s,h]. -/
def mix (E : Fin 256 → Fin 256 → EReal) (V : Fin 256 → Fin 64 → EReal) (t : Fin 256) (h : Fin 64) : EReal :=
  ∑ s : Fin 256, Ideal.div (E t s) (rowSum E t) * V s h

/-- One head on one sequence. -/
def head (X : Mat 256 384) (Wq Wk Wv : Mat 384 64) (Lq Lk : Mat 64 256) (t : Fin 256) (h : Fin 64) : EReal :=
  mix (weight (score X Wq Wk Lq Lk)) (proj X Wv) t h

/-- Sequence b of a stack. -/
def slab (x : Stack 512 256 384) (b : Fin 512) : Mat 256 384 :=
  fun j => x (ix3 b (j 0 : Fin 256) (j 1 : Fin 384))

theorem slab_apply (x : Stack 512 256 384) (b : Fin 512) (t : Fin 256) (c : Fin 384) : slab x b (ix2 t c) = x (ix3 b t c) := rfl

/-- The head applied to every sequence of the stack. -/
def attention (x : Stack 512 256 384) (Wq Wk Wv : Mat 384 64) (Lq Lk : Mat 64 256) : Stack 512 256 64 :=
  fun i => head (slab x (i 0 : Fin 512)) Wq Wk Wv Lq Lk (i 1 : Fin 256) (i 2 : Fin 64)

theorem attention_apply (x : Stack 512 256 384) (Wq Wk Wv : Mat 384 64) (Lq Lk : Mat 64 256) (b : Fin 512) (t : Fin 256) (h : Fin 64) :
    attention x Wq Wk Wv Lq Lk (ix3 b t h) = head (slab x b) Wq Wk Wv Lq Lk t h := rfl

end Attention

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.LibSegSup.lean ====
/-
  The supremum of an extended-real function of the natural numbers over a run of consecutive positions,
  `segSup f a n = sup { f (a + k) | k < n }` (the bottom element when the run is empty), and the one law a
  pooling argument needs of it: a run of `n + n'` positions is its first `n` positions followed by the next
  `n'`, so its supremum is the larger of the two parts' suprema. Only the order structure is used — the supremum
  of a finite family does not depend on how the family is cut or grouped, and holds at the infinities as anywhere
  else. Also: a left fold of `max` from the bottom element over a finite family is that family's supremum, and a
  supremum over `Fin n` is the supremum over the run of `n` positions.
-/
import Mathlib.Data.EReal.Basic
import Mathlib.Order.Interval.Finset.Nat

namespace SegSup

/-- The supremum of `f` over the `n` consecutive positions `a, a + 1, …, a + n - 1`. -/
noncomputable def segSup (f : ℕ → EReal) (a n : ℕ) : EReal := (Finset.range n).sup fun k => f (a + k)

theorem segSup_zero (f : ℕ → EReal) (a : ℕ) : segSup f a 0 = ⊥ := by
  unfold segSup; rw [Finset.range_zero, Finset.sup_empty]

theorem segSup_succ (f : ℕ → EReal) (a n : ℕ) : segSup f a (n + 1) = segSup f a n ⊔ f (a + n) := by
  unfold segSup; rw [Finset.range_add_one, Finset.sup_insert, sup_comm]

/-- A run of `n + n'` positions is a run of `n` followed by a run of `n'`. -/
theorem segSup_add (f : ℕ → EReal) (a n n' : ℕ) : segSup f a (n + n') = segSup f a n ⊔ segSup f (a + n) n' := by
  induction n' with
  | zero => rw [Nat.add_zero, segSup_zero, sup_bot_eq]
  | succ k ih => rw [← Nat.add_assoc, segSup_succ, ih, segSup_succ, sup_assoc, Nat.add_assoc]

/-- Two runs of equal length whose entries agree position by position have one supremum. -/
theorem segSup_congr {f g : ℕ → EReal} {a b n : ℕ} (h : ∀ k, k < n → f (a + k) = g (b + k)) : segSup f a n = segSup g b n := by
  unfold segSup; exact Finset.sup_congr rfl fun k hk => h k (Finset.mem_range.1 hk)

/-- The supremum over `Fin n` of the entries at `a + k` is the supremum over the run. -/
theorem sup_univ_fin (f : ℕ → EReal) (a n : ℕ) : (Finset.univ : Finset (Fin n)).sup (fun k => f (a + k.val)) = segSup f a n := by
  unfold segSup
  apply le_antisymm
  · exact Finset.sup_le fun k _ => Finset.le_sup (f := fun k => f (a + k)) (Finset.mem_range.2 k.isLt)
  · exact Finset.sup_le fun k hk =>
      Finset.le_sup (f := fun k : Fin n => f (a + k.val)) (Finset.mem_univ (⟨k, Finset.mem_range.1 hk⟩ : Fin n))

/-- Folding `max` from the bottom element over a finite family gives its supremum. -/
theorem fold_max_bot {ι : Type*} (s : Finset ι) (g : ι → EReal) : s.fold max ⊥ g = s.sup g := rfl

end SegSup
-- ==== Proof.LibHostMax.lean ====
/-
  A host reduction with a maximum body, started from the bottom element (the pattern of −∞), read at an index over the
  extended reals: reducing the LAST axis of an [n, w] array gives at row `r` the supremum of that row's `w` entries, and
  reducing the last axis of an [n, q, w] array gives at (r, i) the supremum of the `w` entries of group `i` of row `r`. The
  reduction is a fold of `max` over the reduced axis's coordinates in some order; a fold of `max` from the bottom element
  over a finite family is the family's supremum, whatever the order. The same for a lane reduction of an [n, w] vector
  (`multiReduction_rows`), and a vector cast to one column read back (`shapeCast_col_apply`). Also: two arrays of `q` columns and of one column set
  side by side, read at column `j`, give the first array's column `j` when `j < q` and the second's only column otherwise.
-/
import Idealize.ShloMosaic.Lib.ValueIdx
import Idealize.ShloMosaic.Lib.Pipeline.Value
import Idealize.ShloMosaic.PureOps.Ideal.Laws
import proofs.«133257_j21758304321795_1_alg».proof.Proof.LibSegSup

noncomputable section

namespace HostMax

open Idealize.ShloMosaic Idealize.ShloMosaic.ValueIdx SegSup

/-- The pattern of −∞ denotes the bottom element of the extended reals. -/
theorem ofBits_neg_inf : Ideal.ofBits .f32 0xFF800000#32 = (⊥ : EReal) := by
  simp [Ideal.ofBits, Ideal.ieee]

/-- Row `r` of an [n, w] array with coordinate `k` put back on the reduced (last) axis is (r, k). -/
theorem lift_rows {n w : ℕ} (h : (⟨2, ![n, w]⟩ : Shape).Reduces [1] (⟨1, ![n]⟩ : Shape)) (r : Fin n)
    (k : Fin ((⟨2, ![n, w]⟩ : Shape).size 1)) : h.lift (ix1 r) k = ix2 r (⟨k.val, k.isLt⟩ : Fin w) := by
  funext c; apply Fin.ext
  fin_cases c <;> rfl

/-- Group (r, i) of an [n, q, w] array with coordinate `k` put back on the reduced (last) axis is (r, i, k). -/
theorem lift_groups {n q w : ℕ} (h : (⟨3, ![n, q, w]⟩ : Shape).Reduces [2] (⟨2, ![n, q]⟩ : Shape)) (r : Fin n) (i : Fin q)
    (k : Fin ((⟨3, ![n, q, w]⟩ : Shape).size 2)) : h.lift (ix2 r i) k = ix3 r i (⟨k.val, k.isLt⟩ : Fin w) := by
  funext c; apply Fin.ext
  fin_cases c <;> rfl

/-- From −∞ the host's maximum over the last axis of an [n, w] array, at row `r`, is the supremum of the row. -/
theorem reduce_rows {n w : ℕ} (v : FVec Ideal ⟨2, ![n, w]⟩ .f32) (init : (⟨0, ![]⟩ : Shape).Idx → Ideal .f32)
    (hinit : ∀ i, init i = (⊥ : EReal))
    (h' : (⟨2, ![n, w]⟩ : Shape).ReducesTo [1] (⟨1, ![n]⟩ : Shape)) (h : (⟨2, ![n, w]⟩ : Shape).Reduces [1] (⟨1, ![n]⟩ : Shape))
    (hu : 0 < (⟨0, ![]⟩ : Shape).numel) (r : Fin n) :
    Host.reduce FloatOps.maximumf v init h' hu (ix1 r) = (Finset.univ : Finset (Fin w)).sup fun k => v (ix2 r k) := by
  rw [Host.reduce_eq_fold_single FloatOps.maximumf v init h' h hu, hinit]
  have hf : (v ∘ h.lift (ix1 r)) = fun k : Fin w => v (ix2 r k) := funext fun k => congrArg v (lift_rows h r k)
  exact congrArg (fun f => Finset.fold max (⊥ : EReal) f (Finset.univ : Finset (Fin w))) hf

/-- From −∞ the host's maximum over the last axis of an [n, q, w] array, at (r, i), is the supremum of that group. -/
theorem reduce_groups {n q w : ℕ} (v : FVec Ideal ⟨3, ![n, q, w]⟩ .f32) (init : (⟨0, ![]⟩ : Shape).Idx → Ideal .f32)
    (hinit : ∀ i, init i = (⊥ : EReal))
    (h' : (⟨3, ![n, q, w]⟩ : Shape).ReducesTo [2] (⟨2, ![n, q]⟩ : Shape))
    (h : (⟨3, ![n, q, w]⟩ : Shape).Reduces [2] (⟨2, ![n, q]⟩ : Shape))
    (hu : 0 < (⟨0, ![]⟩ : Shape).numel) (r : Fin n) (i : Fin q) :
    Host.reduce FloatOps.maximumf v init h' hu (ix2 r i) = (Finset.univ : Finset (Fin w)).sup fun k => v (ix3 r i k) := by
  rw [Host.reduce_eq_fold_single FloatOps.maximumf v init h' h hu, hinit]
  have hf : (v ∘ h.lift (ix2 r i)) = fun k : Fin w => v (ix3 r i k) := funext fun k => congrArg v (lift_groups h r i k)
  exact congrArg (fun f => Finset.fold max (⊥ : EReal) f (Finset.univ : Finset (Fin w))) hf

/-- From −∞ a lane reduction with a maximum body over the last axis of an [n, w] vector, at row `r`, is the supremum of
    the row: the kernel-side reading of the same fold. -/
theorem multiReduction_rows {n w : ℕ} (P : FVec Ideal ⟨2, ![n, w]⟩ .f32)
    (h : (⟨2, ![n, w]⟩ : Shape).Reduces [1] (⟨1, ![n]⟩ : Shape)) (hφ : FKind.Formats .f32)
    (hacc : (0xFF800000#32 : BitVec FTy.f32.bits) = FKind.maximumf.neutral .f32 hφ) (r : Fin n) :
    multiReduction (F := Ideal) .maximumf [1] (⟨1, ![n]⟩ : Shape) P 0xFF800000#32 h hφ hacc (ix1 r)
      = (Finset.univ : Finset (Fin w)).sup fun k => P (ix2 r k) := by
  refine (Ideal.multiReduction_maximumf_single (φ := .f32) P 0xFF800000#32 h hφ hacc (ix1 r)).trans ?_
  have hf : (P ∘ h.lift (ix1 r)) = fun k : Fin w => P (ix2 r k) := funext fun k => congrArg P (lift_rows h r k)
  have hb : FloatOps.ofBits (F := Ideal) .f32 0xFF800000#32 = (⊥ : EReal) := ofBits_neg_inf
  rw [hb]
  exact congrArg (fun f => Finset.fold max (⊥ : EReal) f (Finset.univ : Finset (Fin w))) hf

/-- A vector of `n` entries cast to one column, read at (r, 0), is entry `r`. -/
theorem shapeCast_col_apply {α : Type} {n : ℕ} (v : (⟨1, ![n]⟩ : Shape).Idx → α)
    (h : (⟨1, ![n]⟩ : Shape).ShapeCasts (⟨2, ![n, 1]⟩ : Shape)) (y : (⟨2, ![n, 1]⟩ : Shape).Idx) (r : Fin n)
    (hy : (y 0).val = r.val) : shapeCast (⟨2, ![n, 1]⟩ : Shape) v h y = v (ix1 r) := by
  refine shapeCast_apply v h y (ix1 r) ?_
  rw [Shape.rowMajor_val_one, Shape.rowMajor_val_two]
  have h1 : (y 1).val < 1 := (y 1).isLt
  show r.val = (y 0).val * 1 + (y 1).val
  omega

/-- An array of `q` columns and an array of one column set side by side: column `j` of the join is the first array's
    column `j` when `j < q`, and otherwise (`j = q`) the second array's only column. -/
theorem join_cols {α : Type} {n q : ℕ} (A : (⟨2, ![n, q]⟩ : Shape).Idx → α) (B : (⟨2, ![n, 1]⟩ : Shape).Idx → α)
    (h : Shape.Concatenates [(⟨2, ![n, q]⟩ : Shape), (⟨2, ![n, 1]⟩ : Shape)] (⟨2, ![n, q + 1]⟩ : Shape) (1 : Fin 2))
    (r : Fin n) (j : Fin (q + 1)) :
    concatenate (⟨2, ![n, q + 1]⟩ : Shape) (1 : Fin 2) [⟨(⟨2, ![n, q]⟩ : Shape), A⟩, ⟨(⟨2, ![n, 1]⟩ : Shape), B⟩] h (ix2 r j)
      = if hj : j.val < q then A (ix2 r ⟨j.val, hj⟩) else B (ix2 r (0 : Fin 1)) := by
  split
  · rename_i hj
    exact concatenate_pair_apply_left (1 : Fin 2) A B h (ix2 r j) rfl (ix2 r ⟨j.val, hj⟩) (fun b => by fin_cases b <;> rfl)
  · rename_i hj
    refine concatenate_pair_apply_right (1 : Fin 2) A B h (ix2 r j) rfl rfl (ix2 r (0 : Fin 1)) (fun b hb => ?_) ?_
    · fin_cases b
      · rfl
      · exact absurd rfl hb
    · show 0 + q = j.val
      have := j.isLt; omega

end HostMax

end
-- ==== Proof.LibLaneRows.lean ====
/-
  Two readings of an [n, w] vector over the extended reals, row by row.

  A lane reduction with an addition body over the last axis, from the neutral accumulator, holds at row `r` the plain sum of that
  row's `w` entries: the reduction sums the entries whose index drops to `r`, and those are exactly (r, 0), …, (r, w − 1).
  A one-column array [n, 1] broadcast to [n, w] holds at (r, t) the column's entry of row `r`, whatever `t`.
-/
import Idealize.ShloMosaic.Lib.ValueIdx
import Idealize.ShloMosaic.Lib.Pipeline.Value
import Idealize.ShloMosaic.PureOps.Ideal.Laws
import proofs.«133257_j21758304321795_1_alg».proof.Proof.LibHostMax

noncomputable section

open scoped BigOperators

namespace LaneRows

open Idealize.ShloMosaic Idealize.ShloMosaic.ValueIdx

/-- From the neutral accumulator, a lane sum over the last axis of an [n, w] vector, at row `r`, is the sum of the row. -/
theorem multiReduction_add_rows {n w : ℕ} (P : FVec Ideal ⟨2, ![n, w]⟩ .f32) (acc : BitVec FTy.f32.bits)
    (h : (⟨2, ![n, w]⟩ : Shape).Reduces [1] (⟨1, ![n]⟩ : Shape)) (hφ : FKind.Formats .f32)
    (hacc : acc = FKind.add.neutral .f32 hφ) (r : Fin n) :
    multiReduction (F := Ideal) .add [1] (⟨1, ![n]⟩ : Shape) P acc h hφ hacc (ix1 r) = ∑ k : Fin w, P (ix2 r k) := by
  refine (Ideal.multiReduction_add_single (φ := .f32) P acc h hφ hacc (ix1 r)).trans ?_
  have hf : (P ∘ h.lift (ix1 r)) = fun k : Fin w => P (ix2 r k) :=
    funext fun k => congrArg P (HostMax.lift_rows h r k)
  exact congrArg (fun f => ∑ k : Fin w, f k) hf

/-- One column broadcast across `w` columns: entry (r, t) is the column's entry of row `r`. -/
theorem broadcastTo_col_apply {α : Type} {n w : ℕ} (v : (⟨2, ![n, 1]⟩ : Shape).Idx → α)
    (h : (⟨2, ![n, 1]⟩ : Shape).Broadcasts ⟨2, ![n, w]⟩) (r : Fin n) (t : Fin w) :
    broadcastTo ⟨2, ![n, w]⟩ v h (ix2 r t) = v (ix2 r (0 : Fin 1)) := by
  refine broadcastTo_apply v h (ix2 r t) (ix2 r (0 : Fin 1)) fun ax => ?_
  match ax with
  | ⟨0, _⟩ =>
    show r.val = if n = 1 then 0 else r.val
    split
    · have := r.isLt; omega
    · rfl
  | ⟨1, _⟩ =>
    show (0 : ℕ) = if (1 : ℕ) = 1 then 0 else t.val
    rw [if_pos rfl]

end LaneRows

end
-- ==== Proof.LibMaskBits.lean ====
/-
  The one-bit words of a lower-triangular mask, read as the propositions they encode.

  A mask "column s is visible from row t" is computed on 32-bit words: the row number and the column number, each written as a
  word, compared signed with "greater or equal". For numbers below 2^31 the word's signed value is the number itself, so the
  comparison's bit is 1 exactly when s ≤ t. A select on such a bit is then an if-then-else on the proposition, and a select that
  only copies the bit (1 where it is 1, 0 elsewhere) is the bit.
-/
import Idealize.ShloMosaic.PureOps.Ideal
import Idealize.ShloMosaic.Lib.Affine

namespace MaskBits

open Idealize.ShloMosaic

/-- A number below 2^31, written as a 32-bit word and read back signed, is itself. -/
theorem toInt_ofNat_small (n : ℕ) (h : n < 2 ^ 31) : (BitVec.ofNat 32 n).toInt = (n : ℤ) := by
  rw [BitVec.toInt_eq_toNat_cond, BitVec.toNat_ofNat, Nat.mod_eq_of_lt (by omega)]
  rw [if_pos (by omega)]

/-- The signed comparison "row ≥ column" of two small numbers written as words says 1 exactly when column ≤ row. -/
theorem sge_ofNat_iff (t s : ℕ) (ht : t < 2 ^ 31) (hs : s < 2 ^ 31) :
    IntOp.cmpi .sge (BitVec.ofNat 32 t) (BitVec.ofNat 32 s) = 1#1 ↔ s ≤ t := by
  rw [IntOp.cmpi_sge, toInt_ofNat_small t ht, toInt_ofNat_small s hs]
  exact Int.ofNat_le

/-- Adding the zero word changes nothing. -/
theorem addi_zero (x : BitVec 32) : IntOp.addi x 0#32 = x := by
  unfold IntOp.addi; exact BitVec.add_zero x

/-- A select on a bit that encodes a proposition is the if-then-else on the proposition. -/
theorem select_of_iff {α : Type} {c : BitVec 1} {p : Prop} [Decidable p] (h : c = 1#1 ↔ p) (a b : α) :
    Scalar.select c a b = if p then a else b := by
  unfold Scalar.select
  by_cases hp : p
  · rw [if_pos hp]; exact if_pos (h.2 hp)
  · rw [if_neg hp]; exact if_neg (fun hc => hp (h.1 hc))

/-- A select that writes 1 where the bit is 1 and 0 elsewhere is the bit. -/
theorem select_one_zero (c : BitVec 1) : Scalar.select c (1#1 : BitVec 1) (0#1 : BitVec 1) = c := by
  revert c; decide

end MaskBits
-- ==== Proof.KernelBody.lean ====
/-
  What the kernel body computes on one grid point's blocks: one head of causal tanh-score attention of that sequence.

  The body loads one sequence X (a [1,256,384] block, read as a 256-by-384 matrix) and the five weight matrices whole, and
  stores one [1,256,64] block. Its arithmetic, stage by stage, read at an entry over the extended reals:
    three products X·W into the zero accumulator are the sums Σ_c X[t,c]·W[c,h] (changes of float format are the identity);
    two further products q·Lq, k·Lk likewise; their sum goes through tanh;
    the mask keeps entry (t,s) where the row number is at least the column number, and writes the named fill — which the
    certificate's table reads as −∞ — elsewhere;
    the lane maximum over a row, started from −∞, is the row's supremum, and the larger of −∞ and it is it again;
    exp of the entry less that maximum; the lane sum of a row from zero is the row's sum;
    the quotient of the two, multiplied into the values and summed over s.
  That is `Attention.head` of the blocks, entry by entry.
-/
import proofs.«133257_j21758304321795_1_alg».proof.Proof.Gen.KernelIdeal.Skeleton
import proofs.«133257_j21758304321795_1_alg».proof.Proof.Attention
import proofs.«133257_j21758304321795_1_alg».proof.Proof.LibDotCols
import proofs.«133257_j21758304321795_1_alg».proof.Proof.LibHostMax
import proofs.«133257_j21758304321795_1_alg».proof.Proof.LibLaneRows
import proofs.«133257_j21758304321795_1_alg».proof.Proof.LibMaskBits
import Idealize.ShloMosaic.Lib.ValueLayout
import Idealize.ShloMosaic.Lib.Pipeline.Value
import Idealize.ShloMosaic.PureOps.IdealRules

noncomputable section

open scoped BigOperators

namespace Cert.KernelIdeal.Body

open Cert.KernelIdeal Cert.KernelIdeal.Gen Idealize.ShloMosaic Idealize.ShloMosaic.ValueIdx Attention

/-- The loaded [1,256,384] block as a 256-by-384 matrix. -/
def seq (v0 : Vec Ideal S1x256x384 .f32) : Mat 256 384 :=
  fun j => v0 (ix3 (0 : Fin 1) (j 0 : Fin 256) (j 1 : Fin 384))

/-- The mask's fill is named in the certificate's table, which gives it the value −∞. -/
theorem fill_eq_bot : Named.named (F := Ideal) κ "neg_big" (φ := .f32) 0xFF333332#32 = (⊥ : EReal) :=
  IdealRules.named_const.ideal_named_scalar _ _ _ _ rfl

/-- A product of the sequence with a 384-by-64 weight, into the zero accumulator, at (t, h). -/
theorem product_seq (v0 : Vec Ideal S1x256x384 .f32) (w : Vec Ideal S384x64 .f32) (t : Fin 256) (h : Fin 64) :
    matmul dot_S256x384_S384x64_S256x64_1_0_0_1_n_n none (k0_pay2 (F := Ideal) v0) (truncf .bf16 w bitsLt_bf16_f32)
      (constant S256x64 .f32 0x00000000#32) (ix2 t h) = proj (seq v0) w t h := by
  unfold k0_pay2
  refine (Cert.Lib.DotCols.matmul_cols_apply dot_S256x384_S384x64_S256x64_1_0_0_1_n_n rfl none _ _ t h).trans ?_
  unfold proj
  refine Finset.sum_congr rfl fun c _ => ?_
  exact congrArg (· * w (ix2 c h)) (shapeCast_1ab_ab_apply v0 shapeCasts_S1x256x384_S256x384 t c)

/-- The values: the body's third product is the projection by the third weight. -/
theorem values_apply (v0 : Vec Ideal S1x256x384 .f32) (w : Vec Ideal S384x64 .f32) (t : Fin 256) (h : Fin 64) :
    k0_pay3 (F := Ideal) v0 w (ix2 t h) = proj (seq v0) w t h := by
  unfold k0_pay3
  exact product_seq v0 w t h

/-- The masked scores as the body computes them, before the row maximum is taken. -/
def maskedScores (v0 : Vec Ideal S1x256x384 .f32) (v3 v5 : Vec Ideal S384x64 .f32) (v12 v14 : Vec Ideal S64x256 .f32) :
    FVec Ideal S256x256 .f32 :=
  select (cmpi .sge (iota .tc S256x256 32 [0] iota_S256x256_d0_w32) (iota .tc S256x256 32 [1] iota_S256x256_d1_w32))
    (tanh (addf
      (matmul dot_S256x64_S64x256_S256x256_1_0_0_1_n_n none
        (truncf .bf16 (matmul dot_S256x384_S384x64_S256x64_1_0_0_1_n_n none (k0_pay2 v0) (truncf .bf16 v3 bitsLt_bf16_f32)
          (constant S256x64 .f32 0x00000000#32)) bitsLt_bf16_f32)
        (truncf .bf16 v12 bitsLt_bf16_f32) (constant S256x256 .f32 0x00000000#32))
      (matmul dot_S256x64_S64x256_S256x256_1_0_0_1_n_n none
        (truncf .bf16 (matmul dot_S256x384_S384x64_S256x64_1_0_0_1_n_n none (k0_pay2 v0) (truncf .bf16 v5 bitsLt_bf16_f32)
          (constant S256x64 .f32 0x00000000#32)) bitsLt_bf16_f32)
        (truncf .bf16 v14 bitsLt_bf16_f32) (constant S256x256 .f32 0x00000000#32))))
    (broadcast S256x256 (Named.named κ "neg_big" 0xFF333332#32))

/-- The body's mask bit at (t, s) says "s ≤ t". -/
theorem causal_bit (t s : Fin 256) :
    cmpi .sge (iota .tc S256x256 32 [0] iota_S256x256_d0_w32) (iota .tc S256x256 32 [1] iota_S256x256_d1_w32) (ix2 t s) = 1#1
      ↔ s.val ≤ t.val := by
  show IntOp.cmpi .sge (iota .tc S256x256 32 [0] iota_S256x256_d0_w32 (ix2 t s))
    (iota .tc S256x256 32 [1] iota_S256x256_d1_w32 (ix2 t s)) = 1#1 ↔ _
  rw [iota_single_apply, iota_single_apply]
  exact MaskBits.sge_ofNat_iff t.val s.val (by have := t.isLt; omega) (by have := s.isLt; omega)

/-- A spread product at (t, s): Σ_h Q[t,h]·L[h,s]. -/
theorem product_spread (Q : FVec Ideal S256x64 .f32) (L : Vec Ideal S64x256 .f32) (t s : Fin 256) :
    matmul dot_S256x64_S64x256_S256x256_1_0_0_1_n_n none (truncf .bf16 Q bitsLt_bf16_f32) (truncf .bf16 L bitsLt_bf16_f32)
      (constant S256x256 .f32 0x00000000#32) (ix2 t s) = ∑ h : Fin 64, Q (ix2 t h) * L (ix2 h s) :=
  Cert.Lib.DotCols.matmul_cols_apply dot_S256x64_S64x256_S256x256_1_0_0_1_n_n rfl none _ _ t s

/-- The masked scores at (t, s) are the causal score of the block. -/
theorem maskedScores_apply (v0 : Vec Ideal S1x256x384 .f32) (v3 v5 : Vec Ideal S384x64 .f32) (v12 v14 : Vec Ideal S64x256 .f32)
    (t s : Fin 256) : maskedScores v0 v3 v5 v12 v14 (ix2 t s) = score (seq v0) v3 v5 v12 v14 t s := by
  unfold maskedScores score
  refine (MaskBits.select_of_iff (causal_bit t s) _ _).trans ?_
  refine if_congr Iff.rfl ?_ fill_eq_bot
  show Ideal.tanh (_ + _) = _
  rw [product_spread, product_spread]
  unfold spread
  refine congrArg Ideal.tanh (congrArg₂ (· + ·) ?_ ?_)
  · exact Finset.sum_congr rfl fun h _ => congrArg (· * v12 (ix2 h s)) (product_seq v0 v3 t h)
  · exact Finset.sum_congr rfl fun h _ => congrArg (· * v14 (ix2 h s)) (product_seq v0 v5 t h)

/-- A row softmax's numerator as the body spells it on any 256-by-256 array P: exp of the entry less the row's supremum. -/
theorem numerator_apply (P : FVec Ideal S256x256 .f32) (t s : Fin 256) :
    exp (subf P (broadcastTo S256x256 (shapeCast S256x1
      (maximumf (broadcast S256 (Scalar.ofBits .f32 0xFF800000#32))
        (multiReduction .maximumf [1] S256 P 0xFF800000#32 reduces_S256x256_S256 (.inl rfl) rfl))
      shapeCasts_S256_S256x1) broadcasts_S256x1_S256x256)) (ix2 t s)
      = Ideal.exp (P (ix2 t s) - (Finset.univ : Finset (Fin 256)).sup fun k => P (ix2 t k)) := by
  show Ideal.exp (P (ix2 t s) - broadcastTo S256x256 _ broadcasts_S256x1_S256x256 (ix2 t s)) = _
  refine congrArg (fun m => Ideal.exp (P (ix2 t s) - m)) ?_
  refine (LaneRows.broadcastTo_col_apply _ broadcasts_S256x1_S256x256 t s).trans ?_
  refine (HostMax.shapeCast_col_apply _ shapeCasts_S256_S256x1 _ t rfl).trans ?_
  show max (Ideal.ofBits .f32 0xFF800000#32) _ = _
  refine (congrArg₂ max HostMax.ofBits_neg_inf
    (HostMax.multiReduction_rows P reduces_S256x256_S256 (.inl rfl) rfl t)).trans ?_
  exact max_bot_left _

/-- The body's weights are the softmax numerators of the causal score. -/
theorem weights_apply (v0 : Vec Ideal S1x256x384 .f32) (v3 v5 : Vec Ideal S384x64 .f32) (v12 v14 : Vec Ideal S64x256 .f32)
    (t s : Fin 256) : k0_pay4 (F := Ideal) v0 v3 v5 v12 v14 (ix2 t s) = weight (score (seq v0) v3 v5 v12 v14) t s := by
  refine (numerator_apply (maskedScores v0 v3 v5 v12 v14) t s).trans ?_
  unfold weight rowMax
  rw [maskedScores_apply]
  exact congrArg (fun f => Ideal.exp (score (seq v0) v3 v5 v12 v14 t s - (Finset.univ : Finset (Fin 256)).sup f))
    (funext fun k => maskedScores_apply v0 v3 v5 v12 v14 t k)

/-- The body's denominators: the row sum of the weights, the same in every column. -/
theorem denominators_apply (v0 : Vec Ideal S1x256x384 .f32) (v3 v5 : Vec Ideal S384x64 .f32) (v12 v14 : Vec Ideal S64x256 .f32)
    (t s : Fin 256) : k0_pay5 (F := Ideal) v0 v3 v5 v12 v14 (ix2 t s) = rowSum (weight (score (seq v0) v3 v5 v12 v14)) t := by
  unfold k0_pay5
  refine (LaneRows.broadcastTo_col_apply _ broadcasts_S256x1_S256x256 t s).trans ?_
  refine (HostMax.shapeCast_col_apply _ shapeCasts_S256_S256x1 _ t rfl).trans ?_
  refine (LaneRows.multiReduction_add_rows _ _ reduces_S256x256_S256 (.inl rfl) rfl t).trans ?_
  unfold rowSum
  exact Finset.sum_congr rfl fun k _ => weights_apply v0 v3 v5 v12 v14 t k

/-- The stored block at (u, t, h): the weights over their denominators, applied to the values. -/
theorem stored_apply (v11 : FVec Ideal S256x64 .f32) (v33 v36 : FVec Ideal S256x256 .f32) (u : Fin 1) (t : Fin 256) (h : Fin 64) :
    k0_pay1 (F := Ideal) v11 v33 v36 (ix3 u t h) = ∑ s : Fin 256, Ideal.div (v33 (ix2 t s)) (v36 (ix2 t s)) * v11 (ix2 s h) := by
  unfold k0_pay1
  refine (shapeCast_ab_1ab_apply _ shapeCasts_S256x64_S1x256x64 u t h).trans ?_
  exact Cert.Lib.DotCols.matmul_cols_apply dot_S256x256_S256x64_S256x64_1_0_0_1_n_n rfl none _ _ t h

/-- THE BODY IS THE HEAD: the block the body stores, at (u, t, h), is entry (t, h) of the head of the loaded sequence under
    the loaded weights (x1, x2, x3 the three projections in the order query, key, value; x4, x5 the two spreading maps). -/
theorem block_eq_head (x0 : Vec Ideal S1x256x384 .f32) (x1 x2 x3 : Vec Ideal S384x64 .f32) (x4 x5 : Vec Ideal S64x256 .f32)
    (u : Fin 1) (t : Fin 256) (h : Fin 64) :
    k0_pay1 (F := Ideal) (k0_pay3 x0 x3) (k0_pay4 x0 x1 x2 x4 x5) (k0_pay5 x0 x1 x2 x4 x5) (ix3 u t h)
      = head (seq x0) x1 x2 x3 x4 x5 t h := by
  refine (stored_apply _ _ _ u t h).trans ?_
  unfold head mix
  refine Finset.sum_congr rfl fun s _ => ?_
  rw [weights_apply, denominators_apply, values_apply]

end Cert.KernelIdeal.Body

end
-- ==== Proof.Blocks.lean ====
/-
  From the blocks to the whole array: after the kernel's run the result array is the attention of the argument arrays.

  The grid has one point per sequence. At point t the first window's block is sequence t of the stack (block index t on the
  leading axis, 0 on the others, block extent 1 by 256 by 384), each weight window's block is the whole weight matrix (block
  index 0, block extent the array's), and the output window's block is rows (t, ·, ·) of the result. So what point t writes
  back — the head of the blocks it loaded — is block t of `attention` of the arrays as the region finds them; the 512
  output blocks cover the result array (entry (b, t, h) lies in the block of point b); hence the array ends holding
  `attention` of the arguments, and the arguments are unchanged.
-/
import proofs.«133257_j21758304321795_1_alg».proof.Proof.Gen.KernelIdeal.Value
import proofs.«133257_j21758304321795_1_alg».proof.Proof.KernelBody

noncomputable section

namespace Cert.KernelIdeal.Whole

open Cert.KernelIdeal Cert.KernelIdeal.Gen Idealize.ShloMosaic Idealize.ShloMosaic.TcCoe Idealize.SL.Sem
open Idealize.ShloMosaic.ValueIdx Attention
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- The printed index maps, decided over the 512 grid points: the sequence window and the output window move along the
    leading axis with the point, and every weight window stays at block 0. -/
theorem index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0 :=
  (by decide +kernel : ∀ t : Fin grid0.N, _)

/-- The result array as one function of the arrays the region finds. -/
abbrev result (c : Dev nD) : Stack 512 256 64 :=
  attention (V m c main_arg0) (V m c main_arg1) (V m c main_arg2) (V m c main_arg3) (V m c main_arg4) (V m c main_arg5)

/-- The sequence window's block at point t is sequence t of the stack. -/
theorem sequence_block (c : Dev nD) (t : Fin cfg0.N) :
    Body.seq (iblk m c 0 t) = slab (V m c main_arg0) ⟨t.val, t.isLt⟩ := by
  obtain ⟨e0, e1, e2, -⟩ := index_facts t
  funext j
  show V m c main_arg0 (((cfg0.win 0).blk t).view.emb (ix3 (0 : Fin 1) (j 0 : Fin 256) (j 1 : Fin 384)))
    = V m c main_arg0 (ix3 (⟨t.val, t.isLt⟩ : Fin 512) (j 0 : Fin 256) (j 1 : Fin 384))
  refine congrArg (V m c main_arg0) (funext fun a => Fin.ext ?_)
  match a with
  | ⟨0, _⟩ => show win0_0.index t (0 : Fin 3) * 1 + 1 * 0 = t.val; omega
  | ⟨1, _⟩ => show win0_0.index t (1 : Fin 3) * 256 + 1 * (j 0).val = (j 0).val; omega
  | ⟨2, _⟩ => show win0_0.index t (2 : Fin 3) * 384 + 1 * (j 1).val = (j 1).val; omega

/-- Each weight window's block is the whole weight matrix, at every point. -/
theorem weight_block1 (c : Dev nD) (t : Fin cfg0.N) : iblk m c 1 t = V m c main_arg1 := by
  obtain ⟨-, -, -, e0, e1, -⟩ := index_facts t
  funext y
  show V m c main_arg1 (((cfg0.win 1).blk t).view.emb y) = V m c main_arg1 y
  refine congrArg (V m c main_arg1) (funext fun a => Fin.ext ?_)
  match a with
  | ⟨0, _⟩ => show win0_1.index t (0 : Fin 2) * 384 + 1 * (y 0).val = (y 0).val; omega
  | ⟨1, _⟩ => show win0_1.index t (1 : Fin 2) * 64 + 1 * (y 1).val = (y 1).val; omega

theorem weight_block2 (c : Dev nD) (t : Fin cfg0.N) : iblk m c 2 t = V m c main_arg2 := by
  obtain ⟨-, -, -, -, -, e0, e1, -⟩ := index_facts t
  funext y
  show V m c main_arg2 (((cfg0.win 2).blk t).view.emb y) = V m c main_arg2 y
  refine congrArg (V m c main_arg2) (funext fun a => Fin.ext ?_)
  match a with
  | ⟨0, _⟩ => show win0_2.index t (0 : Fin 2) * 384 + 1 * (y 0).val = (y 0).val; omega
  | ⟨1, _⟩ => show win0_2.index t (1 : Fin 2) * 64 + 1 * (y 1).val = (y 1).val; omega

theorem weight_block3 (c : Dev nD) (t : Fin cfg0.N) : iblk m c 3 t = V m c main_arg3 := by
  obtain ⟨-, -, -, -, -, -, -, e0, e1, -⟩ := index_facts t
  funext y
  show V m c main_arg3 (((cfg0.win 3).blk t).view.emb y) = V m c main_arg3 y
  refine congrArg (V m c main_arg3) (funext fun a => Fin.ext ?_)
  match a with
  | ⟨0, _⟩ => show win0_3.index t (0 : Fin 2) * 384 + 1 * (y 0).val = (y 0).val; omega
  | ⟨1, _⟩ => show win0_3.index t (1 : Fin 2) * 64 + 1 * (y 1).val = (y 1).val; omega

theorem weight_block4 (c : Dev nD) (t : Fin cfg0.N) : iblk m c 4 t = V m c main_arg4 := by
  obtain ⟨-, -, -, -, -, -, -, -, -, e0, e1, -⟩ := index_facts t
  funext y
  show V m c main_arg4 (((cfg0.win 4).blk t).view.emb y) = V m c main_arg4 y
  refine congrArg (V m c main_arg4) (funext fun a => Fin.ext ?_)
  match a with
  | ⟨0, _⟩ => show win0_4.index t (0 : Fin 2) * 64 + 1 * (y 0).val = (y 0).val; omega
  | ⟨1, _⟩ => show win0_4.index t (1 : Fin 2) * 256 + 1 * (y 1).val = (y 1).val; omega

theorem weight_block5 (c : Dev nD) (t : Fin cfg0.N) : iblk m c 5 t = V m c main_arg5 := by
  obtain ⟨-, -, -, -, -, -, -, -, -, -, -, e0, e1, -⟩ := index_facts t
  funext y
  show V m c main_arg5 (((cfg0.win 5).blk t).view.emb y) = V m c main_arg5 y
  refine congrArg (V m c main_arg5) (funext fun a => Fin.ext ?_)
  match a with
  | ⟨0, _⟩ => show win0_5.index t (0 : Fin 2) * 64 + 1 * (y 0).val = (y 0).val; omega
  | ⟨1, _⟩ => show win0_5.index t (1 : Fin 2) * 256 + 1 * (y 1).val = (y 1).val; omega

/-- WHAT POINT t WRITES BACK is block t of the result. -/
theorem flushed_eq (c : Dev nD) (t : Fin cfg0.N) :
    (dats m 0 c).flushed 6 t = ((cfg0.win 6).blk t).view.read (Elt Ideal) (result m c) := by
  show (cfg0.win 6).cut (grid0.coords t) ((dats m 0 c).after 6 t) = _
  rw [after0_6]
  unfold out0_6
  rw [View.canon_unit_zero zero3]
  simp only [View.ld_unit_zero (S := S1x256x384) zero3, View.ld_unit_zero (S := S384x64) zero2,
    View.ld_unit_zero (S := S64x256) zero2]
  obtain ⟨-, -, -, -, -, -, -, -, -, -, -, -, -, e0, e1, e2⟩ := index_facts t
  funext j
  obtain ⟨u, p, h, rfl⟩ : ∃ (u : Fin 1) (p : Fin 256) (h : Fin 64), j = ix3 u p h := ⟨j 0, j 1, j 2, eq_ix3 j⟩
  show k0_pay1 (F := Ideal) (k0_pay3 (iblk m c 0 t) (iblk m c 3 t))
      (k0_pay4 (iblk m c 0 t) (iblk m c 1 t) (iblk m c 2 t) (iblk m c 4 t) (iblk m c 5 t))
      (k0_pay5 (iblk m c 0 t) (iblk m c 1 t) (iblk m c 2 t) (iblk m c 4 t) (iblk m c 5 t)) (ix3 u p h)
    = result m c (((cfg0.win 6).blk t).view.emb (ix3 u p h))
  refine (Body.block_eq_head (iblk m c 0 t) (iblk m c 1 t) (iblk m c 2 t) (iblk m c 3 t) (iblk m c 4 t) (iblk m c 5 t)
    u p h).trans ?_
  rw [sequence_block, weight_block1, weight_block2, weight_block3, weight_block4, weight_block5]
  have hemb : ((cfg0.win 6).blk t).view.emb (ix3 u p h) = ix3 (⟨t.val, t.isLt⟩ : Fin 512) p h := by
    funext a; apply Fin.ext
    have hu : u.val = 0 := by omega
    match a with
    | ⟨0, _⟩ => show win0_6.index t (0 : Fin 3) * 1 + 1 * u.val = t.val; omega
    | ⟨1, _⟩ => show win0_6.index t (1 : Fin 3) * 256 + 1 * p.val = p.val; omega
    | ⟨2, _⟩ => show win0_6.index t (2 : Fin 3) * 64 + 1 * h.val = h.val; omega
  rw [hemb]
  rfl

/-- An entry of the result array is in point t's block iff each coordinate is in the block's range on its axis. -/
theorem mem_block (t : Fin cfg0.N) (i : S512x256x64.Idx) :
    i ∈ ((cfg0.win 6).blk t).view.set ↔ ∀ a : Fin 3, win0_6.index t a * S1x256x64.size a ≤ (i a).val
      ∧ (i a).val < win0_6.index t a * S1x256x64.size a + S1x256x64.size a := by
  show i ∈ ((View.whole main_v0).slice (win0_6.rect t)).set ↔ _
  rw [View.set_slice_whole, Rect.mem_set_unit]
  exact Iff.rfl

/-- Every entry (b, ·, ·) of the result array lies in the block of point b. -/
theorem cover (i : S512x256x64.Idx) :
    ∃ t : Fin cfg0.N, (cfg0.win 6).flush t = true ∧ i ∈ ((cfg0.win 6).blk t).view.set := by
  have hi0 : (i 0).val < 512 := (i 0).isLt
  have hi1 : (i 1).val < 256 := (i 1).isLt
  have hi2 : (i 2).val < 64 := (i 2).isLt
  obtain ⟨-, -, -, -, -, -, -, -, -, -, -, -, -, e0, e1, e2⟩ := index_facts (⟨(i 0).val, hi0⟩ : Fin cfg0.N)
  have e0' : win0_6.index (⟨(i 0).val, hi0⟩ : Fin cfg0.N) (0 : Fin 3) = (i 0).val := e0
  refine ⟨⟨(i 0).val, hi0⟩, flush0_6 _, ?_⟩
  rw [mem_block]
  intro a
  match a with
  | ⟨0, _⟩ =>
    show win0_6.index (⟨(i 0).val, hi0⟩ : Fin cfg0.N) (0 : Fin 3) * 1 ≤ (i 0).val
      ∧ (i 0).val < win0_6.index (⟨(i 0).val, hi0⟩ : Fin cfg0.N) (0 : Fin 3) * 1 + 1
    omega
  | ⟨1, _⟩ =>
    show win0_6.index (⟨(i 0).val, hi0⟩ : Fin cfg0.N) (1 : Fin 3) * 256 ≤ (i 1).val
      ∧ (i 1).val < win0_6.index (⟨(i 0).val, hi0⟩ : Fin cfg0.N) (1 : Fin 3) * 256 + 256
    omega
  | ⟨2, _⟩ =>
    show win0_6.index (⟨(i 0).val, hi0⟩ : Fin cfg0.N) (2 : Fin 3) * 64 ≤ (i 2).val
      ∧ (i 2).val < win0_6.index (⟨(i 0).val, hi0⟩ : Fin cfg0.N) (2 : Fin 3) * 64 + 64
    omega

/-- THE RESULT ARRAY after the run is the attention of the arrays the region finds. -/
theorem final (c : Dev nD) : (dats m 0 c).arrAt 6 cfg0.N = result m c :=
  (dats m 0 c).arrAt_eq_of_cover 6 (result m c) (fun t _ => flushed_eq m c t) cover

/-- THE KERNEL'S RUN: every weakly fair execution terminates with the result array at the attention of the argument arrays
    and the arguments unchanged. -/
theorem run : θ_run defs (onTc (τ := τ) (main (F := Ideal))) ⟨m, fun _ => 0, ρ⟩ fun r => ∀ c : Dev nD,
      r.2.mem ((c : Thread nD τ).loc main_v0)
        = attention (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Whole

end
-- ==== Proof.Reference.lean ====
/-
  What the reference computes: at entry (b, t, h) of its result, one head of causal tanh-score attention of sequence b.

  The reference works on the whole stack of 512 sequences at once. Read at an entry over the extended reals, its stages are:
    the projections x·W of the stack are, at (b, t, h), the sums Σ_c x[b,t,c]·W[c,h] — the projection of sequence b;
    the spread products likewise; their sum goes through tanh;
    the lower-triangular mask, built from the row and column numbers as words, says "s ≤ t" and does not depend on b; where
    it fails the score is the constant −∞;
    the maximum over the last axis, started from −∞, is the supremum of row (b, t), and the larger of −∞ and it is it again;
    exp of the entry less that maximum; the sum over the last axis from zero is the row's sum;
    their quotient, multiplied with the values of the SAME sequence b and summed over s.
  That is `Attention.attention` of the arguments, entry by entry.
-/
import proofs.«133257_j21758304321795_1_alg».proof.Proof.Gen.ReferenceIdeal.Read
import proofs.«133257_j21758304321795_1_alg».proof.Proof.Attention
import proofs.«133257_j21758304321795_1_alg».proof.Proof.LibHostMax
import proofs.«133257_j21758304321795_1_alg».proof.Proof.LibMaskBits
import Idealize.ShloMosaic.Lib.IdealHost

noncomputable section

open scoped BigOperators

namespace Cert.ReferenceIdeal.Head

open Cert.ReferenceIdeal Cert.ReferenceIdeal.Gen Cert.ReferenceIdeal.Read Idealize.ShloMosaic Idealize.ShloMosaic.ValueIdx Attention

/-- An index of a rank-3 array is determined by its three coordinates. -/
theorem idx3_eq {n0 n1 n2 : ℕ} (j : (⟨3, ![n0, n1, n2]⟩ : Shape).Idx) (a : Fin n0) (b : Fin n1) (c : Fin n2)
    (h0 : (j 0).val = a.val) (h1 : (j 1).val = b.val) (h2 : (j 2).val = c.val) : j = ix3 a b c :=
  funext fun d => Fin.ext (by match d with | ⟨0, _⟩ => exact h0 | ⟨1, _⟩ => exact h1 | ⟨2, _⟩ => exact h2)

/-- An index of a rank-2 array is determined by its two coordinates. -/
theorem idx2_eq {n0 n1 : ℕ} (j : (⟨2, ![n0, n1]⟩ : Shape).Idx) (a : Fin n0) (b : Fin n1)
    (h0 : (j 0).val = a.val) (h1 : (j 1).val = b.val) : j = ix2 a b :=
  funext fun d => Fin.ext (by match d with | ⟨0, _⟩ => exact h0 | ⟨1, _⟩ => exact h1)

variable (x0 : (⟨S512x256x384, .f32⟩ : BufTy).Contents (Elt Ideal)) (x1 x2 x3 : (⟨S384x64, .f32⟩ : BufTy).Contents (Elt Ideal))
  (x4 x5 : (⟨S64x256, .f32⟩ : BufTy).Contents (Elt Ideal))

/-- The first projection of the stack, at (b, t, h), is the projection of sequence b. -/
theorem query_apply (b : Fin 512) (t : Fin 256) (h : Fin 64) :
    val_main_v0 (F := Ideal) x0 x1 (ix3 b t h) = proj (slab x0 b) x1 t h := by
  rw [val_main_v0_apply]
  unfold proj
  refine Finset.sum_congr rfl fun c _ => ?_
  exact congrArg₂ (· * ·) (congrArg x0 (idx3_eq _ b t c rfl rfl rfl)) (congrArg x1 (idx2_eq _ c h rfl rfl))

/-- The second projection likewise. -/
theorem key_apply (b : Fin 512) (t : Fin 256) (h : Fin 64) :
    val_main_v1 (F := Ideal) x0 x2 (ix3 b t h) = proj (slab x0 b) x2 t h := by
  rw [val_main_v1_apply]
  unfold proj
  refine Finset.sum_congr rfl fun c _ => ?_
  exact congrArg₂ (· * ·) (congrArg x0 (idx3_eq _ b t c rfl rfl rfl)) (congrArg x2 (idx2_eq _ c h rfl rfl))

/-- The third projection (the values) likewise. -/
theorem value_apply (b : Fin 512) (t : Fin 256) (h : Fin 64) :
    val_main_v20 (F := Ideal) x0 x3 (ix3 b t h) = proj (slab x0 b) x3 t h := by
  rw [val_main_v20_apply]
  unfold proj
  refine Finset.sum_congr rfl fun c _ => ?_
  exact congrArg₂ (· * ·) (congrArg x0 (idx3_eq _ b t c rfl rfl rfl)) (congrArg x3 (idx2_eq _ c h rfl rfl))

/-- The first projection spread over the positions. -/
theorem query_spread_apply (b : Fin 512) (t s : Fin 256) :
    val_main_v2 (F := Ideal) x0 x1 x4 (ix3 b t s) = spread (proj (slab x0 b) x1) x4 t s := by
  rw [val_main_v2_apply]
  unfold spread
  refine Finset.sum_congr rfl fun k _ => ?_
  exact congrArg₂ (· * ·)
    ((congrArg (val_main_v0 (F := Ideal) x0 x1) (idx3_eq _ b t k rfl rfl rfl)).trans (query_apply x0 x1 b t k))
    (congrArg x4 (idx2_eq _ k s rfl rfl))

/-- The second projection spread over the positions. -/
theorem key_spread_apply (b : Fin 512) (t s : Fin 256) :
    val_main_v3 (F := Ideal) x0 x2 x5 (ix3 b t s) = spread (proj (slab x0 b) x2) x5 t s := by
  rw [val_main_v3_apply]
  unfold spread
  refine Finset.sum_congr rfl fun k _ => ?_
  exact congrArg₂ (· * ·)
    ((congrArg (val_main_v1 (F := Ideal) x0 x2) (idx3_eq _ b t k rfl rfl rfl)).trans (key_apply x0 x2 b t k))
    (congrArg x5 (idx2_eq _ k s rfl rfl))

/-- The lower-triangular mask's bit at (t, s) says "s ≤ t". -/
theorem mask_bit (t s : Fin 256) : val_main_v7 (F := Ideal) (ix2 t s) = 1#1 ↔ s.val ≤ t.val := by
  rw [val_main_v7_apply, val_main_v6_apply, val_main_c_apply, val_main_call0_v5_apply, val_main_call0_c_0_apply,
    MaskBits.select_one_zero, val_main_call0_v4_apply, val_main_call0_v2_apply, val_main_call0_v0_apply,
    val_main_call0_v1_apply, val_main_call0_c_apply, val_main_call0_v3_apply, MaskBits.addi_zero]
  exact MaskBits.sge_ofNat_iff t.val s.val (by have := t.isLt; omega) (by have := s.isLt; omega)

/-- The masked scores of the stack, at (b, t, s), are the causal score of sequence b. -/
theorem score_apply (b : Fin 512) (t s : Fin 256) :
    val_main_v8 (F := Ideal) x0 x1 x2 x4 x5 (ix3 b t s) = score (slab x0 b) x1 x2 x4 x5 t s := by
  rw [val_main_v8_apply, val_main_call1_v1_apply,
    show idx_main_call1_v1 (ix3 b t s) = ix2 t s from idx2_eq _ t s rfl rfl,
    MaskBits.select_of_iff (mask_bit t s)]
  unfold score
  refine if_congr Iff.rfl ?_ ?_
  · rw [val_main_v5_apply, val_main_v4_apply, query_spread_apply, key_spread_apply]
    rfl
  · rw [val_main_call1_v2_apply, val_main_call1_v0_apply, val_main_cst_apply]
    exact HostMax.ofBits_neg_inf

/-- The row maximum of the stack, at (b, t), is the supremum of row t of sequence b's scores. -/
theorem rowMax_apply (b : Fin 512) (t : Fin 256) :
    val_main_v11 (F := Ideal) x0 x1 x2 x4 x5 (ix2 b t) = rowMax (score (slab x0 b) x1 x2 x4 x5) t := by
  rw [val_main_v11_apply, val_main_v10_apply, val_main_cst_1_apply]
  show max (Ideal.ofBits .f32 0xFF800000#32) (val_main_v9 (F := Ideal) x0 x1 x2 x4 x5 (ix2 b t)) = _
  unfold val_main_v9
  refine (congrArg₂ max HostMax.ofBits_neg_inf
    (HostMax.reduce_groups (val_main_v8 (F := Ideal) x0 x1 x2 x4 x5) (val_main_cst_0 (F := Ideal))
      (fun _ => HostMax.ofBits_neg_inf) reducesTo_S512x256x256_S512x256_d2 (by decide) h_S_ b t)).trans ?_
  refine (max_bot_left _).trans ?_
  unfold rowMax
  exact congrArg (fun f => (Finset.univ : Finset (Fin 256)).sup f) (funext fun k => score_apply x0 x1 x2 x4 x5 b t k)

/-- The softmax numerators of the stack, at (b, t, s). -/
theorem weight_apply (b : Fin 512) (t s : Fin 256) :
    val_main_v15 (F := Ideal) x0 x1 x2 x4 x5 (ix3 b t s) = weight (score (slab x0 b) x1 x2 x4 x5) t s := by
  rw [val_main_v15_apply, val_main_v14_apply, val_main_v13_apply, val_main_v12_apply,
    show idx_main_v12 (idx_main_v13 (ix3 b t s)) = ix2 b t from idx2_eq _ b t rfl rfl,
    rowMax_apply, score_apply]
  rfl

/-- The softmax denominators of the stack, at (b, t). -/
theorem rowSum_apply (b : Fin 512) (t : Fin 256) :
    val_main_v16 (F := Ideal) x0 x1 x2 x4 x5 (ix2 b t) = rowSum (weight (score (slab x0 b) x1 x2 x4 x5)) t := by
  rw [val_main_v16_apply, val_main_cst_2_apply]
  show Ideal.ofBits .f32 0x00000000#32 + _ = _
  rw [Ideal.ofBits_zero_f32, zero_add]
  unfold rowSum
  refine Finset.sum_congr rfl fun k _ => ?_
  exact (congrArg (val_main_v15 (F := Ideal) x0 x1 x2 x4 x5) (idx3_eq _ b t k rfl rfl rfl)).trans
    (weight_apply x0 x1 x2 x4 x5 b t k)

/-- The normalised weights of the stack, at (b, t, s). -/
theorem normalised_apply (b : Fin 512) (t s : Fin 256) :
    val_main_v19 (F := Ideal) x0 x1 x2 x4 x5 (ix3 b t s)
      = Ideal.div (weight (score (slab x0 b) x1 x2 x4 x5) t s) (rowSum (weight (score (slab x0 b) x1 x2 x4 x5)) t) := by
  rw [val_main_v19_apply, val_main_v18_apply, val_main_v17_apply,
    show idx_main_v17 (idx_main_v18 (ix3 b t s)) = ix2 b t from idx2_eq _ b t rfl rfl,
    rowSum_apply, weight_apply]
  rfl

/-- THE REFERENCE IS THE HEAD OF EACH SEQUENCE: its result is `attention` of its arguments. -/
theorem result_eq :
    val_main_v21 (F := Ideal) x0 x1 x2 x3 x4 x5 = attention x0 x1 x2 x3 x4 x5 := by
  funext i
  obtain ⟨b, t, h, rfl⟩ : ∃ (b : Fin 512) (t : Fin 256) (h : Fin 64), i = ix3 b t h := ⟨i 0, i 1, i 2, eq_ix3 i⟩
  rw [val_main_v21_apply, attention_apply]
  unfold head mix
  refine Finset.sum_congr rfl fun s _ => ?_
  exact congrArg₂ (· * ·)
    ((congrArg (val_main_v19 (F := Ideal) x0 x1 x2 x4 x5) (idx3_eq _ b t s rfl rfl rfl)).trans
      (normalised_apply x0 x1 x2 x4 x5 b t s))
    ((congrArg (val_main_v20 (F := Ideal) x0 x3) (idx3_eq _ b s h rfl rfl rfl)).trans (value_apply x0 x3 b s h))

end Cert.ReferenceIdeal.Head

end
-- ==== Proof.lean ====
/-
  The kernel computes, for each of 512 sequences, one head of causal self-attention with an additive (tanh) score; the
  reference computes the same on the whole stack at once. Over the extended reals both are the one function
  `Attention.attention` of the six argument arrays:
    q = x·Wq, k = x·Wk, v = x·Wv;  a = tanh (q·Lq + k·Lk);  S = a where the column is at most the row, −∞ elsewhere;
    E = exp (S − row maximum of S);  out = (E / row sum of E)·v,
  every product a plain sum of products and no sum rearranged, so the equality holds at every extended real and the finiteness
  of the inputs is never used. The two programs differ only in spelling: the kernel rounds operands to a narrower float format
  before each product (the identity on extended reals), works one sequence per grid point on blocks, and fills the masked
  entries with a large negative number that the certificate's table of named constants reads as −∞ — the value the reference
  fills with; the mask is "row number ≥ column number" on both sides.

  The pieces: the body's stored block is the head of the loaded blocks (KernelBody); the blocks are the sequences and the
  whole weight matrices, and the 512 output blocks cover the result (Blocks); the reference's stages, read at an entry, are
  the head of the entry's sequence (Reference). The three frames are the generated frame proofs of the two kernels and the
  reference's generated run with the result dropped; the one rewrite of the idealization is the named constant's statement.
-/
import proofs.«133257_j21758304321795_1_alg».proof.Defs
import proofs.«133257_j21758304321795_1_alg».proof.Proof.Gen.Kernel
import proofs.«133257_j21758304321795_1_alg».proof.Proof.Gen.Kernel.Skeleton
import proofs.«133257_j21758304321795_1_alg».proof.Proof.Gen.Kernel.Launch
import proofs.«133257_j21758304321795_1_alg».proof.Proof.Gen.Kernel.Points
import proofs.«133257_j21758304321795_1_alg».proof.Proof.Gen.Kernel.Frame
import proofs.«133257_j21758304321795_1_alg».proof.Proof.Gen.KernelIdeal
import proofs.«133257_j21758304321795_1_alg».proof.Proof.Gen.KernelIdeal.Skeleton
import proofs.«133257_j21758304321795_1_alg».proof.Proof.Gen.KernelIdeal.Launch
import proofs.«133257_j21758304321795_1_alg».proof.Proof.Gen.KernelIdeal.Points
import proofs.«133257_j21758304321795_1_alg».proof.Proof.Gen.KernelIdeal.Frame
import proofs.«133257_j21758304321795_1_alg».proof.Proof.Gen.KernelIdeal.Value
import proofs.«133257_j21758304321795_1_alg».proof.Proof.Gen.ReferenceIdeal
import proofs.«133257_j21758304321795_1_alg».proof.Proof.Gen.ReferenceIdeal.Run
import proofs.«133257_j21758304321795_1_alg».proof.Proof.Gen.ReferenceIdeal.Read
import proofs.«133257_j21758304321795_1_alg».proof.Proof.Gen.Pre_finite_inputs
import proofs.«133257_j21758304321795_1_alg».proof.Proof.Blocks
import proofs.«133257_j21758304321795_1_alg».proof.Proof.Reference
import Idealize.ShloMosaic.PureOps.IdealRules
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization's one rewrite: the table gives the mask's fill the value −∞, and the printed constant is that value. -/
theorem preserves : Cert.preserves_Kernel_KernelIdeal :=
  IdealRules.named_const.statement Cert.KernelIdeal.κ "neg_big" .f32 0xFF333332#32 ⊥ rfl

/-- Both idealized programs end with their result at the attention of the argument arrays, which agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.Head.result_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
